-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x2 .f32) (main_arg12 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg11
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x2 .f32) (main_arg12 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1000000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1000000x64 : Shape := ⟨2, ![1000000, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x2 : Shape := ⟨2, ![1000, 2]⟩
abbrev S1x2 : Shape := ⟨2, ![1, 2]⟩

abbrev nBuf : Space → Nat
  | .hbm => 70
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x2, .f32⟩
  | .hbm, ⟨12, _⟩ => ⟨S2, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .f32⟩
  | .hbm, ⟨27, _⟩ => ⟨S100000x128, .f32⟩
  | .hbm, ⟨28, _⟩ => ⟨S1000000x1, .i32⟩
  | .hbm, ⟨29, _⟩ => ⟨S100000x128, .f32⟩
  | .hbm, ⟨30, _⟩ => ⟨S1x64, .f32⟩
  | .hbm, ⟨31, _⟩ => ⟨S1x64, .f32⟩
  | .hbm, ⟨32, _⟩ => ⟨S100000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .f32⟩
  | .hbm, ⟨42, _⟩ => ⟨S_, .f32⟩
  | .hbm, ⟨43, _⟩ => ⟨S100000x64, .f32⟩
  | .hbm, ⟨44, _⟩ => ⟨S1000000x1, .i32⟩
  | .hbm, ⟨45, _⟩ => ⟨S100000x64, .f32⟩
  | .hbm, ⟨46, _⟩ => ⟨S1x64, .f32⟩
  | .hbm, ⟨47, _⟩ => ⟨S1x64, .f32⟩
  | .hbm, ⟨48, _⟩ => ⟨S100000x64, .f32⟩
  | .hbm, ⟨49, _⟩ => ⟨S_, .f32⟩
  | .hbm, ⟨50, _⟩ => ⟨S1000x64, .f32⟩
  | .hbm, ⟨51, _⟩ => ⟨S100000x1, .i32⟩
  | .hbm, ⟨52, _⟩ => ⟨S1000x64, .f32⟩
  | .hbm, ⟨53, _⟩ => ⟨S_, .f32⟩
  | .hbm, ⟨54, _⟩ => ⟨S100000, .f32⟩
  | .hbm, ⟨55, _⟩ => ⟨S_, .f32⟩
  | .hbm, ⟨56, _⟩ => ⟨S1000, .f32⟩
  | .hbm, ⟨57, _⟩ => ⟨S100000x1, .i32⟩
  | .hbm, ⟨58, _⟩ => ⟨S1000, .f32⟩
  | .hbm, ⟨59, _⟩ => ⟨S_, .f32⟩
  | .hbm, ⟨60, _⟩ => ⟨S_, .f32⟩
  | .hbm, ⟨61, _⟩ => ⟨S1000, .f32⟩
  | .hbm, ⟨62, _⟩ => ⟨S1000, .f32⟩
  | .hbm, ⟨63, _⟩ => ⟨S1000x1, .f32⟩
  | .hbm, ⟨64, _⟩ => ⟨S1000x64, .f32⟩
  | .hbm, ⟨65, _⟩ => ⟨S1000x64, .f32⟩
  | .hbm, ⟨66, _⟩ => ⟨S1000x2, .f32⟩
  | .hbm, ⟨67, _⟩ => ⟨S1x2, .f32⟩
  | .hbm, ⟨68, _⟩ => ⟨S1000x2, .f32⟩
  | .hbm, ⟨69, _⟩ => ⟨S1000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x2_S1000x2_1_0_0_1_n_n_wf : DotDims.WF S1000x64 S64x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000x64 : Shape := ⟨2, ![100000, 64]⟩
abbrev S1x64 : Shape := ⟨2, ![1, 64]⟩
abbrev S1000000x64 : Shape := ⟨2, ![1000000, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x2 : Shape := ⟨2, ![1000, 2]⟩
abbrev S1x2 : Shape := ⟨2, ![1, 2]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x2, .f32⟩
  | .hbm, ⟨12, _⟩ => ⟨S2, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .f32⟩
  | .hbm, ⟨27, _⟩ => ⟨S100000x128, .f32⟩
  | .hbm, ⟨28, _⟩ => ⟨S1000000x1, .i32⟩
  | .hbm, ⟨29, _⟩ => ⟨S100000x128, .f32⟩
  | .hbm, ⟨30, _⟩ => ⟨S100000x128, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S_, .f32⟩
  | .hbm, ⟨55, _⟩ => ⟨S100000x64, .f32⟩
  | .hbm, ⟨56, _⟩ => ⟨S1000000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S1000x64, .f32⟩
  | .hbm, ⟨75, _⟩ => ⟨S100000x1, .i32⟩
  | .hbm, ⟨76, _⟩ => ⟨S1000x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S1000, .f32⟩
  | .hbm, ⟨81, _⟩ => ⟨S100000x1, .i32⟩
  | .hbm, ⟨82, _⟩ => ⟨S1000, .f32⟩
  | .hbm, ⟨83, _⟩ => ⟨S_, .f32⟩
  | .hbm, ⟨84, _⟩ => ⟨S_, .f32⟩
  | .hbm, ⟨85, _⟩ => ⟨S1000, .f32⟩
  | .hbm, ⟨86, _⟩ => ⟨S1000, .f32⟩
  | .hbm, ⟨87, _⟩ => ⟨S1000x1, .f32⟩
  | .hbm, ⟨88, _⟩ => ⟨S1000x64, .f32⟩
  | .hbm, ⟨89, _⟩ => ⟨S1000x64, .f32⟩
  | .hbm, ⟨90, _⟩ => ⟨S1000x2, .f32⟩
  | .hbm, ⟨91, _⟩ => ⟨S1x2, .f32⟩
  | .hbm, ⟨92, _⟩ => ⟨S1000x2, .f32⟩
  | .hbm, ⟨93, _⟩ => ⟨S1000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_call4_v0 : Ref sig .tc := ⟨.hbm, 84, rfl⟩
abbrev main_call4_v1 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x2_S1000x2_1_0_0_1_n_n_wf : DotDims.WF S1000x64 S64x2 S1000x2 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

class Facts : Prop extends Facts₀ where

variable [Facts]
-- ==== Proof.KernelRun.lean ====
/-
  The idealized kernel program's run with its result NAMED: every weakly fair execution of @main terminates, nothing
  faulting, with the result buffer at what the last stretch of host operations leaves in it — the fold `Gen.W7` of
  @main's seven segments (three stretches of host operations, the two tiled regions, and the outlined clip) from the
  launch memory — and the argument arrays as launched. The run is the segment-by-segment one of the frame: the final
  state holds every unscoped buffer at the last boundary's contents, and the result buffer is one of them.
-/
import proofs.«100790_j88072599372184_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer at the last boundary's contents and the arguments unchanged. -/
theorem run : θ_run defs (onTc (τ := τ) (main (F := F))) ⟨m, fun _ => 0, ρ⟩ (fun r => ∀ c : Dev nD,
      r.2.mem ((c.tc : Thread nD τ).loc main_v44) = W7 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v44 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.Named

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.LibDenseRelu.lean ====
/-
  A dense layer followed by a rectifier, read at an entry at the ideal values (the extended reals), for arbitrary
  extents, in the two spellings a program meets it in.

  * `hostBias_apply`: a bias vector `[n]` broadcast through a unit row `[1, n]` over `[m, n]` reads, at `(a, b)`,
    the vector's entry `b`.
  * `hostDenseRelu_apply`: the host's `max (A · B + bias) 0` — a `dot_general` of `[m, k]` by `[k, n]`, the bias
    broadcast as above, the zero a broadcast scalar constant — is, at `(a, b)`,
    `max (∑ c, A (a, c) * B (c, b) + bias b) 0`.
  * `vecDenseRelu_apply`: the vector unit's spelling — a `tpu.matmul` of the two operands, each first rounded to a
    narrower format (the identity on extended reals), into a zero accumulator, the bias a `[1, n]` row (behind an
    identity shape cast) broadcast over the rows, the zero a broadcast scalar — is the same expression with the bias
    row's entry `(0, b)`.
-/
import Idealize.ShloMosaic.Lib.Pipeline.Value
import Idealize.ShloMosaic.Lib.ValueIdx
import Idealize.ShloMosaic.Lib.ValueLayout
import Idealize.ShloMosaic.PureOps.Ideal.Laws
import proofs.«100790_j88072599372184_1_alg».proof.Proof.LibDenseLayers
import proofs.«100790_j88072599372184_1_alg».proof.Proof.LibHostMatmul

noncomputable section

namespace Idealize.ShloMosaic.DenseRelu

open Idealize.ShloMosaic Idealize.ShloMosaic.ValueIdx Idealize.ShloMosaic.DenseLayers

/-- A bias vector broadcast through a unit row over all rows reads its entry of the column. -/
theorem hostBias_apply {α : Type} {m n : ℕ} (bias : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 bias) (ix2 a b) = bias (ix1 b) := by
  refine (broadcastInDim_apply _ h2 _ (ix2 a b) (ix2 (0 : Fin 1) b) fun ax => ?_).trans
    (broadcastInDim_apply _ h1 bias (ix2 (0 : Fin 1) b) (ix1 b) fun ax => ?_)
  · match ax with
    | ⟨0, _⟩ => rfl
    | ⟨1, _⟩ =>
      show b.val = if n = 1 then 0 else b.val
      split
      · have := b.isLt; omega
      · rfl
  · match ax with
    | ⟨0, _⟩ =>
      show b.val = if n = 1 then 0 else b.val
      split
      · have := b.isLt; omega
      · rfl

/-- The host's dense layer with a rectifier, read at an entry. -/
theorem hostDenseRelu_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![]) (a : Fin m) (b : Fin n) :
    maximumf (addf (Host.dotGeneral (⟨[1], [0], [0], [1], [], [], w⟩ : DotDims ⟨2, ![m, k]⟩ ⟨2, ![k, n]⟩ ⟨2, ![m, n]⟩) prec A B)
        (broadcastInDim ⟨2, ![m, n]⟩ ![0, 1] h2 (broadcastInDim ⟨2, ![1, n]⟩ ![1] h1 bias)))
      (broadcastInDim ⟨2, ![m, n]⟩ ![] h0 (constant (F := Ideal) ⟨0, ![]⟩ .f32 0x00000000#32)) (ix2 a b)
      = max (∑ c : Fin k, A (ix2 a c) * B (ix2 c b) + bias (ix1 b)) (Ideal.ofBits .f32 0x00000000#32) := by
  rw [maximumf_apply, addf_apply, dotGeneral_rowcol_apply, hostBias_apply, broadcastInDim_scalar_constant_apply]

/-- The vector unit's dense layer with a rectifier, read at an entry. -/
theorem vecDenseRelu_apply {m k n : ℕ} {ψ : FTy}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (hA : ψ.bits < FTy.f32.bits) (hB : ψ.bits < FTy.f32.bits)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (a : Fin m) (b : Fin n) :
    maximumf (addf (matmul (⟨[1], [0], [0], [1], [], [], w⟩ : DotDims ⟨2, ![m, k]⟩ ⟨2, ![k, n]⟩ ⟨2, ![m, n]⟩) prec
          (truncf ψ A hA) (truncf ψ B hB) (constant (F := Ideal) ⟨2, ![m, n]⟩ .f32 0x00000000#32))
        (broadcastTo ⟨2, ![m, n]⟩ (shapeCast ⟨2, ![1, n]⟩ bias hc) hb))
      (broadcast ⟨2, ![m, n]⟩ (Scalar.ofBits (F := Ideal) .f32 0x00000000#32)) (ix2 a b)
      = max (∑ c : Fin k, A (ix2 a c) * B (ix2 c b) + bias (ix2 (0 : Fin 1) b)) (Ideal.ofBits .f32 0x00000000#32) := by
  rw [maximumf_apply, addf_apply, matmul_rowcol_zero_apply, broadcastTo_1b_ab_apply, shapeCast_self]
  rfl

end Idealize.ShloMosaic.DenseRelu

end
-- ==== Proof.GinSpec.lean ====
/-
  One step of the graph network's node update, as a function on the extended reals: every node's row `z r`
  (its own features plus the sum of its in-neighbours') goes through two dense layers, each followed by a rectifier,

      out (r, q) = max (∑ k, max (∑ j, z (r, j) * Wa (j, k) + ba k) 0 * Wb (k, q) + bb q) 0.

  Row `r` of the result depends on row `r` of `z` only. Both spellings of the update — the host's two
  `dot_general`s with broadcast biases, and the vector unit's two matrix products of operands rounded to a narrower
  format — are this function, entry by entry.
-/
import Idealize.ShloMosaic.Lib.ValueIdx
import Idealize.ShloMosaic.Lib.ValueLayout
import Idealize.ShloMosaic.PureOps.Ideal.Laws
import proofs.«100790_j88072599372184_1_alg».proof.Proof.LibDenseRelu

noncomputable section

namespace Cert.Gin

open Idealize.ShloMosaic Idealize.ShloMosaic.ValueIdx Idealize.ShloMosaic.DenseRelu

/-- The update at one entry, from the rows of `z` and the two layers' weights and biases. -/
def mlpAt {n f h h' : ℕ} (z : Fin n → Fin f → EReal) (Wa : Fin f → Fin h → EReal) (ba : Fin h → EReal)
    (Wb : Fin h → Fin h' → EReal) (bb : Fin h' → EReal) (r : Fin n) (q : Fin h') : EReal :=
  max (∑ k : Fin h, max (∑ j : Fin f, z r j * Wa j k + ba k) (Ideal.ofBits .f32 0x00000000#32) * Wb k q + bb q)
    (Ideal.ofBits .f32 0x00000000#32)

/-- The update only reads the row it writes: two arrays of rows that agree on one row, with the same weights and biases,
    give the same entries on that row. -/
theorem mlpAt_congr {n n' f h h' : ℕ} (z : Fin n → Fin f → EReal) (z' : Fin n' → Fin f → EReal)
    (Wa Wa' : Fin f → Fin h → EReal) (ba ba' : Fin h → EReal) (Wb Wb' : Fin h → Fin h' → EReal) (bb bb' : Fin h' → EReal)
    (r : Fin n) (r' : Fin n') (q : Fin h') (hrow : ∀ j, z r j = z' r' j) (hWa : ∀ j k, Wa j k = Wa' j k)
    (hba : ∀ k, ba k = ba' k) (hWb : ∀ k q, Wb k q = Wb' k q) (hbb : ∀ q, bb q = bb' q) :
    mlpAt z Wa ba Wb bb r q = mlpAt z' Wa' ba' Wb' bb' r' q := by
  unfold mlpAt
  simp only [hrow, hWa, hba, hWb, hbb]

/-- The update of a whole array of rows. -/
def mlp {n f h h' : ℕ} (z : FVec Ideal ⟨2, ![n, f]⟩ .f32) (Wa : FVec Ideal ⟨2, ![f, h]⟩ .f32) (ba : Fin h → EReal)
    (Wb : FVec Ideal ⟨2, ![h, h']⟩ .f32) (bb : Fin h' → EReal) : FVec Ideal ⟨2, ![n, h']⟩ .f32 :=
  fun i => mlpAt (fun r j => z (ix2 r j)) (fun j k => Wa (ix2 j k)) ba (fun k q => Wb (ix2 k q)) bb (i 0) (i 1)

theorem mlp_apply {n f h h' : ℕ} (z : FVec Ideal ⟨2, ![n, f]⟩ .f32) (Wa : FVec Ideal ⟨2, ![f, h]⟩ .f32) (ba : Fin h → EReal)
    (Wb : FVec Ideal ⟨2, ![h, h']⟩ .f32) (bb : Fin h' → EReal) (r : Fin n) (q : Fin h') :
    mlp z Wa ba Wb bb (ix2 r q)
      = mlpAt (fun r j => z (ix2 r j)) (fun j k => Wa (ix2 j k)) ba (fun k q => Wb (ix2 k q)) bb r q := rfl

/-- `mlp` of equal operands. -/
theorem mlp_congr {n f h h' : ℕ} {z z' : FVec Ideal ⟨2, ![n, f]⟩ .f32} {Wa Wa' : FVec Ideal ⟨2, ![f, h]⟩ .f32} {ba ba' : Fin h → EReal}
    {Wb Wb' : FVec Ideal ⟨2, ![h, h']⟩ .f32} {bb bb' : Fin h' → EReal}
    (hz : z = z') (hWa : Wa = Wa') (hba : ba = ba') (hWb : Wb = Wb') (hbb : bb = bb') :
    mlp z Wa ba Wb bb = mlp z' Wa' ba' Wb' bb' := by
  subst hz hWa hba hWb hbb; rfl

/-- A bias kept as a vector `[n]`, entry by entry … -/
def vecOf {n : ℕ} (b : FVec Ideal ⟨1, ![n]⟩ .f32) : Fin n → EReal := fun k => b (ix1 k)

/-- … and as a one-row matrix `[1, n]`. -/
def rowOf {n : ℕ} (b : FVec Ideal ⟨2, ![1, n]⟩ .f32) : Fin n → EReal := fun k => b (ix2 (0 : Fin 1) k)

/-- A bias vector reshaped to a one-row matrix has the same entries. -/
theorem rowOf_shapeCast {n : ℕ} (b : FVec Ideal ⟨1, ![n]⟩ .f32) (h : (⟨1, ![n]⟩ : Shape).ShapeCasts ⟨2, ![1, n]⟩) :
    rowOf (shapeCast ⟨2, ![1, n]⟩ b h) = vecOf b :=
  funext fun k => shapeCast_a_1a_apply b h 0 k

/-- The host's spelling of the update is `mlp`. -/
theorem hostMlp_eq {n f h h' : ℕ}
    (w1 : DotDims.WF ⟨2, ![n, f]⟩ ⟨2, ![f, h]⟩ ⟨2, ![n, h]⟩ [1] [0] [0] [1] [] [])
    (w2 : DotDims.WF ⟨2, ![n, h]⟩ ⟨2, ![h, h']⟩ ⟨2, ![n, h']⟩ [1] [0] [0] [1] [] [])
    (prec1 prec2 : Option ContractPrecision)
    (z : FVec Ideal ⟨2, ![n, f]⟩ .f32) (Wa : FVec Ideal ⟨2, ![f, h]⟩ .f32) (ba : FVec Ideal ⟨1, ![h]⟩ .f32)
    (Wb : FVec Ideal ⟨2, ![h, h']⟩ .f32) (bb : FVec Ideal ⟨1, ![h']⟩ .f32)
    (ha1 : (⟨1, ![h]⟩ : Shape).BroadcastsInDim ⟨2, ![1, h]⟩ ![1])
    (ha2 : (⟨2, ![1, h]⟩ : Shape).BroadcastsInDim ⟨2, ![n, h]⟩ ![0, 1])
    (ha0 : (⟨0, ![]⟩ : Shape).BroadcastsInDim ⟨2, ![n, h]⟩ ![])
    (hb1 : (⟨1, ![h']⟩ : Shape).BroadcastsInDim ⟨2, ![1, h']⟩ ![1])
    (hb2 : (⟨2, ![1, h']⟩ : Shape).BroadcastsInDim ⟨2, ![n, h']⟩ ![0, 1])
    (hb0 : (⟨0, ![]⟩ : Shape).BroadcastsInDim ⟨2, ![n, h']⟩ ![]) :
    maximumf (addf (Host.dotGeneral (⟨[1], [0], [0], [1], [], [], w2⟩ : DotDims ⟨2, ![n, h]⟩ ⟨2, ![h, h']⟩ ⟨2, ![n, h']⟩) prec2
          (maximumf (addf (Host.dotGeneral (⟨[1], [0], [0], [1], [], [], w1⟩ : DotDims ⟨2, ![n, f]⟩ ⟨2, ![f, h]⟩ ⟨2, ![n, h]⟩) prec1 z Wa)
              (broadcastInDim ⟨2, ![n, h]⟩ ![0, 1] ha2 (broadcastInDim ⟨2, ![1, h]⟩ ![1] ha1 ba)))
            (broadcastInDim ⟨2, ![n, h]⟩ ![] ha0 (constant (F := Ideal) ⟨0, ![]⟩ .f32 0x00000000#32))) Wb)
        (broadcastInDim ⟨2, ![n, h']⟩ ![0, 1] hb2 (broadcastInDim ⟨2, ![1, h']⟩ ![1] hb1 bb)))
      (broadcastInDim ⟨2, ![n, h']⟩ ![] hb0 (constant (F := Ideal) ⟨0, ![]⟩ .f32 0x00000000#32))
      = mlp z Wa (vecOf ba) Wb (vecOf bb) := by
  funext i
  obtain ⟨r, q, rfl⟩ : ∃ (r : Fin n) (q : Fin h'), i = ix2 r q := ⟨i 0, i 1, eq_ix2 i⟩
  rw [hostDenseRelu_apply, mlp_apply]
  unfold mlpAt vecOf
  refine congrArg (fun s => max (s + bb (ix1 q)) (Ideal.ofBits .f32 0x00000000#32)) (Finset.sum_congr rfl fun k _ => ?_)
  rw [hostDenseRelu_apply]

/-- The vector unit's spelling of the update, read at an entry. -/
theorem vecMlp_apply {n f h h' : ℕ} {ψ : FTy}
    (w1 : DotDims.WF ⟨2, ![n, f]⟩ ⟨2, ![f, h]⟩ ⟨2, ![n, h]⟩ [1] [0] [0] [1] [] [])
    (w2 : DotDims.WF ⟨2, ![n, h]⟩ ⟨2, ![h, h']⟩ ⟨2, ![n, h']⟩ [1] [0] [0] [1] [] [])
    (prec1 prec2 : Option ContractPrecision)
    (z : FVec Ideal ⟨2, ![n, f]⟩ .f32) (Wa : FVec Ideal ⟨2, ![f, h]⟩ .f32) (ba : FVec Ideal ⟨2, ![1, h]⟩ .f32)
    (Wb : FVec Ideal ⟨2, ![h, h']⟩ .f32) (bb : FVec Ideal ⟨2, ![1, h']⟩ .f32)
    (hz hWa hy hWb : ψ.bits < FTy.f32.bits)
    (hac : (⟨2, ![1, h]⟩ : Shape).ShapeCasts ⟨2, ![1, h]⟩) (hab : (⟨2, ![1, h]⟩ : Shape).Broadcasts ⟨2, ![n, h]⟩)
    (hbc : (⟨2, ![1, h']⟩ : Shape).ShapeCasts ⟨2, ![1, h']⟩) (hbb : (⟨2, ![1, h']⟩ : Shape).Broadcasts ⟨2, ![n, h']⟩)
    (r : Fin n) (q : Fin h') :
    maximumf (addf (matmul (⟨[1], [0], [0], [1], [], [], w2⟩ : DotDims ⟨2, ![n, h]⟩ ⟨2, ![h, h']⟩ ⟨2, ![n, h']⟩) prec2
          (truncf ψ (maximumf (addf (matmul (⟨[1], [0], [0], [1], [], [], w1⟩ : DotDims ⟨2, ![n, f]⟩ ⟨2, ![f, h]⟩ ⟨2, ![n, h]⟩) prec1
                  (truncf ψ z hz) (truncf ψ Wa hWa) (constant (F := Ideal) ⟨2, ![n, h]⟩ .f32 0x00000000#32))
                (broadcastTo ⟨2, ![n, h]⟩ (shapeCast ⟨2, ![1, h]⟩ ba hac) hab))
              (broadcast ⟨2, ![n, h]⟩ (Scalar.ofBits (F := Ideal) .f32 0x00000000#32))) hy)
          (truncf ψ Wb hWb) (constant (F := Ideal) ⟨2, ![n, h']⟩ .f32 0x00000000#32))
        (broadcastTo ⟨2, ![n, h']⟩ (shapeCast ⟨2, ![1, h']⟩ bb hbc) hbb))
      (broadcast ⟨2, ![n, h']⟩ (Scalar.ofBits (F := Ideal) .f32 0x00000000#32)) (ix2 r q)
      = mlpAt (fun r j => z (ix2 r j)) (fun j k => Wa (ix2 j k)) (rowOf ba) (fun k q => Wb (ix2 k q)) (rowOf bb) r q := by
  rw [vecDenseRelu_apply]
  unfold mlpAt rowOf
  refine congrArg (fun s => max (s + bb (ix2 (0 : Fin 1) q)) (Ideal.ofBits .f32 0x00000000#32)) (Finset.sum_congr rfl fun k _ => ?_)
  rw [vecDenseRelu_apply]

end Cert.Gin

end
-- ==== Proof.Region0.lean ====
/-
  Region 0 of the program — one layer's node update as a tiled kernel — read as a function of the arrays the region
  finds: point `t` of its 20 loads rows `5000 t … 5000 t + 4999` of the node features and of the neighbour sums, the whole
  weight matrices and bias rows, and writes back those rows of `Gin.mlp` of the whole arrays (the update reads only
  the row it writes). The 20 row blocks cover the result array, which therefore ends at `Gin.mlp` of the arrays.
-/
import proofs.«100790_j88072599372184_1_alg».proof.Proof.Gen.KernelIdeal.Frame
import proofs.«100790_j88072599372184_1_alg».proof.Proof.GinSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- What the body stores, at an entry: the update of the block's rows. -/
theorem pay_apply (x0 x1 : FVec Ideal S5000x128 .f32) (x2 : FVec Ideal S128x64 .f32) (x3 : FVec Ideal S1x64 .f32)
    (x4 : FVec Ideal S64x64 .f32) (x5 : FVec Ideal S1x64 .f32) (r : Fin 5000) (q : Fin 64) :
    k0_pay1 (F := Ideal) x0 x1 x2 x3 x4 x5 (ix2 r q)
      = mlpAt (fun r j => x0 (ix2 r j) + x1 (ix2 r j)) (fun j k => x2 (ix2 j k)) (rowOf x3)
          (fun k q => x4 (ix2 k q)) (rowOf x5) r q := by
  unfold k0_pay1
  rw [shapeCast_self x1]
  exact vecMlp_apply dot_S5000x128_S128x64_S5000x64_1_0_0_1_n_n.wf dot_S5000x64_S64x64_S5000x64_1_0_0_1_n_n.wf none none
    (addf x0 x1) x2 x3 x4 x5 bitsLt_bf16_f32 bitsLt_bf16_f32 bitsLt_bf16_f32 bitsLt_bf16_f32
    shapeCasts_S1x64_S1x64 broadcasts_S1x64_S5000x64 shapeCasts_S1x64_S1x64 broadcasts_S1x64_S5000x64 r q

/-- The printed index maps over the grid: the two row-blocked inputs and the output sit at block row `t`, the weights and
    biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of point `t`'s block is row `5000 t + r` of the array. -/
def row (t : Fin cfg0.N) (r : Fin 5000) : Fin 100000 :=
  ⟨t.val * 5000 + r.val, by have h : t.val < 20 := lt_of_lt_of_eq t.isLt N_0; have := r.isLt; omega⟩

/-- The node features' block at point `t`. -/
theorem blk0_apply (c : Dev nD) (t : Fin cfg0.N) (r : Fin 5000) (j : Fin 128) :
    (iblk0 V c 0 t : FVec Ideal S5000x128 .f32) (ix2 r j) = (V c main_arg0 : S100000x128.Idx → EReal) (ix2 (row t r) j) := by
  obtain ⟨e00, e01, -⟩ := idx_facts t
  unfold iblk0
  rw [View.read_apply]
  show V c main_arg0 _ = V c main_arg0 _
  congr 1
  funext a
  apply Fin.ext
  match a with
  | ⟨0, _⟩ => show win0_0.index t 0 * 5000 + 1 * r.val = t.val * 5000 + r.val; rw [e00]; omega
  | ⟨1, _⟩ => show win0_0.index t 1 * 128 + 1 * j.val = j.val; rw [e01]; omega

/-- The neighbour sums' block at point `t`. -/
theorem blk1_apply (c : Dev nD) (t : Fin cfg0.N) (r : Fin 5000) (j : Fin 128) :
    (iblk0 V c 1 t : FVec Ideal S5000x128 .f32) (ix2 r j) = (V c main_v13 : S100000x128.Idx → EReal) (ix2 (row t r) j) := by
  obtain ⟨-, -, e10, e11, -⟩ := idx_facts t
  unfold iblk0
  rw [View.read_apply]
  show V c main_v13 _ = V c main_v13 _
  congr 1
  funext a
  apply Fin.ext
  match a with
  | ⟨0, _⟩ => show win0_1.index t 0 * 5000 + 1 * r.val = t.val * 5000 + r.val; rw [e10]; omega
  | ⟨1, _⟩ => show win0_1.index t 1 * 128 + 1 * j.val = j.val; rw [e11]; omega

/-- The first layer's weights: the one block is the array. -/
theorem blk2_apply (c : Dev nD) (t : Fin cfg0.N) (j : Fin 128) (k : Fin 64) :
    (iblk0 V c 2 t : FVec Ideal S128x64 .f32) (ix2 j k) = (V c main_arg3 : S128x64.Idx → EReal) (ix2 j k) := by
  obtain ⟨-, -, -, -, e20, e21, -⟩ := idx_facts t
  unfold iblk0
  rw [View.read_apply]
  show V c main_arg3 _ = V c main_arg3 _
  congr 1
  funext a
  apply Fin.ext
  match a with
  | ⟨0, _⟩ => show win0_2.index t 0 * 128 + 1 * j.val = j.val; rw [e20]; omega
  | ⟨1, _⟩ => show win0_2.index t 1 * 64 + 1 * k.val = k.val; rw [e21]; omega

/-- The first layer's bias row. -/
theorem blk3_apply (c : Dev nD) (t : Fin cfg0.N) (k : Fin 64) :
    (iblk0 V c 3 t : FVec Ideal S1x64 .f32) (ix2 (0 : Fin 1) k) = (V c main_v14 : S1x64.Idx → EReal) (ix2 (0 : Fin 1) k) := by
  obtain ⟨-, -, -, -, -, -, e30, e31, -⟩ := idx_facts t
  unfold iblk0
  rw [View.read_apply]
  show V c main_v14 _ = V c main_v14 _
  congr 1
  funext a
  apply Fin.ext
  match a with
  | ⟨0, _⟩ => show win0_3.index t 0 * 1 + 1 * 0 = 0; rw [e30]
  | ⟨1, _⟩ => show win0_3.index t 1 * 64 + 1 * k.val = k.val; rw [e31]; omega

/-- The second layer's weights. -/
theorem blk4_apply (c : Dev nD) (t : Fin cfg0.N) (k : Fin 64) (q : Fin 64) :
    (iblk0 V c 4 t : FVec Ideal S64x64 .f32) (ix2 k q) = (V c main_arg5 : S64x64.Idx → EReal) (ix2 k q) := by
  obtain ⟨-, -, -, -, -, -, -, -, e40, e41, -⟩ := idx_facts t
  unfold iblk0
  rw [View.read_apply]
  show V c main_arg5 _ = V c main_arg5 _
  congr 1
  funext a
  apply Fin.ext
  match a with
  | ⟨0, _⟩ => show win0_4.index t 0 * 64 + 1 * k.val = k.val; rw [e40]; omega
  | ⟨1, _⟩ => show win0_4.index t 1 * 64 + 1 * q.val = q.val; rw [e41]; omega

/-- The second layer's bias row. -/
theorem blk5_apply (c : Dev nD) (t : Fin cfg0.N) (q : Fin 64) :
    (iblk0 V c 5 t : FVec Ideal S1x64 .f32) (ix2 (0 : Fin 1) q) = (V c main_v15 : S1x64.Idx → EReal) (ix2 (0 : Fin 1) q) := by
  obtain ⟨-, -, -, -, -, -, -, -, -, -, e50, e51, -⟩ := idx_facts t
  unfold iblk0
  rw [View.read_apply]
  show V c main_v15 _ = V c main_v15 _
  congr 1
  funext a
  apply Fin.ext
  match a with
  | ⟨0, _⟩ => show win0_5.index t 0 * 1 + 1 * 0 = 0; rw [e50]
  | ⟨1, _⟩ => show win0_5.index t 1 * 64 + 1 * q.val = q.val; rw [e51]; omega

/-- The result array of the region: the update of every node's row, from the arrays as the region finds them. -/
def result (c : Dev nD) : FVec Ideal S100000x64 .f32 :=
  mlp (addf (V c main_arg0 : FVec Ideal S100000x128 .f32) (V c main_v13 : FVec Ideal S100000x128 .f32))
    (V c main_arg3 : FVec Ideal S128x64 .f32) (rowOf (V c main_v14 : FVec Ideal S1x64 .f32))
    (V c main_arg5 : FVec Ideal S64x64 .f32) (rowOf (V c main_v15 : FVec Ideal S1x64 .f32))

/-- Where the output's block at point `t` sits in the array. -/
theorem emb6 (t : Fin cfg0.N) (r : Fin 5000) (q : Fin 64) :
    (((cfg0.win 6).blk t).view.emb (ix2 r q) : S100000x64.Idx) = ix2 (row t r) q := by
  obtain ⟨-, -, -, -, -, -, -, -, -, -, -, -, e60, e61⟩ := idx_facts t
  funext a
  apply Fin.ext
  match a with
  | ⟨0, _⟩ => show win0_6.index t 0 * 5000 + 1 * r.val = t.val * 5000 + r.val; rw [e60]; omega
  | ⟨1, _⟩ => show win0_6.index t 1 * 64 + 1 * q.val = q.val; rw [e61]; omega

/-- What point `t` writes back is its block of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz, View.ld_unit_zero (S := S1x64) hz,
    View.ld_unit_zero (S := S64x64) hz]
  refine funext fun (y : S5000x64.Idx) => ?_
  obtain ⟨r, q, rfl⟩ : ∃ (r : Fin 5000) (q : Fin 64), y = ix2 r q := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 r q)
    = result V c (((cfg0.win 6).blk t).view.emb (ix2 r q))
  rw [emb6 t r q]
  refine (pay_apply (iblk0 V c 0 t) (iblk0 V c 1 t) (iblk0 V c 2 t) (iblk0 V c 3 t) (iblk0 V c 4 t) (iblk0 V c 5 t) r q).trans ?_
  unfold result
  rw [mlp_apply]
  refine mlpAt_congr _ _ _ _ _ _ _ _ _ _ _ _ _ ?_ ?_ ?_ ?_ ?_
  · intro j
    exact congrArg₂ (fun a b : EReal => a + b) (blk0_apply V c t r j) (blk1_apply V c t r j)
  · intro j k; exact blk2_apply V c t j k
  · intro k; exact blk3_apply V c t k
  · intro k q'; exact blk4_apply V c t k q'
  · intro q'; exact blk5_apply V c t q'

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every row of the result lies in the block of the point `row / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_6 _, ?_⟩
  rw [mem_blk]
  obtain ⟨-, -, -, -, -, -, -, -, -, -, -, -, e60, e61⟩ := idx_facts ⟨(i 0).val / 5000, ht⟩
  intro a
  match a with
  | ⟨0, _⟩ =>
    show win0_6.index ⟨(i 0).val / 5000, ht⟩ 0 * 5000 ≤ (i 0).val ∧ (i 0).val < win0_6.index ⟨(i 0).val / 5000, ht⟩ 0 * 5000 + 5000
    rw [e60]
    show (i 0).val / 5000 * 5000 ≤ (i 0).val ∧ (i 0).val < (i 0).val / 5000 * 5000 + 5000
    omega
  | ⟨1, _⟩ =>
    show win0_6.index ⟨(i 0).val / 5000, ht⟩ 1 * 64 ≤ (i 1).val ∧ (i 1).val < win0_6.index ⟨(i 0).val / 5000, ht⟩ 1 * 64 + 64
    rw [e61]
    omega

/-- The region's result array ends at the update of the arrays it found. -/
theorem final (c : Dev nD) : (dat0 V c).arrAt 6 cfg0.N = result V c :=
  (dat0 V c).arrAt_eq_of_cover 6 (result V c) (fun t _ => flushed_eq V c t) (cover)

end Cert.KernelIdeal.Region0

end
-- ==== Proof.Region1.lean ====
/-
  Region 1 of the program — one layer's node update as a tiled kernel — read as a function of the arrays the region
  finds: point `t` of its 20 loads rows `5000 t … 5000 t + 4999` of the node features and of the neighbour sums, the whole
  weight matrices and bias rows, and writes back those rows of `Gin.mlp` of the whole arrays (the update reads only
  the row it writes). The 20 row blocks cover the result array, which therefore ends at `Gin.mlp` of the arrays.
-/
import proofs.«100790_j88072599372184_1_alg».proof.Proof.Gen.KernelIdeal.Frame
import proofs.«100790_j88072599372184_1_alg».proof.Proof.GinSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- What the body stores, at an entry: the update of the block's rows. -/
theorem pay_apply (x0 x1 : FVec Ideal S5000x64 .f32) (x2 : FVec Ideal S64x64 .f32) (x3 : FVec Ideal S1x64 .f32)
    (x4 : FVec Ideal S64x64 .f32) (x5 : FVec Ideal S1x64 .f32) (r : Fin 5000) (q : Fin 64) :
    k1_pay1 (F := Ideal) x0 x1 x2 x3 x4 x5 (ix2 r q)
      = mlpAt (fun r j => x0 (ix2 r j) + x1 (ix2 r j)) (fun j k => x2 (ix2 j k)) (rowOf x3)
          (fun k q => x4 (ix2 k q)) (rowOf x5) r q := by
  unfold k1_pay1
  rw [shapeCast_self x0, shapeCast_self x1]
  exact vecMlp_apply dot_S5000x64_S64x64_S5000x64_1_0_0_1_n_n.wf dot_S5000x64_S64x64_S5000x64_1_0_0_1_n_n.wf none none
    (addf x0 x1) x2 x3 x4 x5 bitsLt_bf16_f32 bitsLt_bf16_f32 bitsLt_bf16_f32 bitsLt_bf16_f32
    shapeCasts_S1x64_S1x64 broadcasts_S1x64_S5000x64 shapeCasts_S1x64_S1x64 broadcasts_S1x64_S5000x64 r q

/-- The printed index maps over the grid: the two row-blocked inputs and the output sit at block row `t`, the weights and
    biases at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of point `t`'s block is row `5000 t + r` of the array. -/
def row (t : Fin cfg1.N) (r : Fin 5000) : Fin 100000 :=
  ⟨t.val * 5000 + r.val, by have h : t.val < 20 := lt_of_lt_of_eq t.isLt N_1; have := r.isLt; omega⟩

/-- The node features' block at point `t`. -/
theorem blk0_apply (c : Dev nD) (t : Fin cfg1.N) (r : Fin 5000) (j : Fin 64) :
    (iblk1 V c 0 t : FVec Ideal S5000x64 .f32) (ix2 r j) = (V c main_v16 : S100000x64.Idx → EReal) (ix2 (row t r) j) := by
  obtain ⟨e00, e01, -⟩ := idx_facts t
  unfold iblk1
  rw [View.read_apply]
  show V c main_v16 _ = V c main_v16 _
  congr 1
  funext a
  apply Fin.ext
  match a with
  | ⟨0, _⟩ => show win1_0.index t 0 * 5000 + 1 * r.val = t.val * 5000 + r.val; rw [e00]; omega
  | ⟨1, _⟩ => show win1_0.index t 1 * 64 + 1 * j.val = j.val; rw [e01]; omega

/-- The neighbour sums' block at point `t`. -/
theorem blk1_apply (c : Dev nD) (t : Fin cfg1.N) (r : Fin 5000) (j : Fin 64) :
    (iblk1 V c 1 t : FVec Ideal S5000x64 .f32) (ix2 r j) = (V c main_v26 : S100000x64.Idx → EReal) (ix2 (row t r) j) := by
  obtain ⟨-, -, e10, e11, -⟩ := idx_facts t
  unfold iblk1
  rw [View.read_apply]
  show V c main_v26 _ = V c main_v26 _
  congr 1
  funext a
  apply Fin.ext
  match a with
  | ⟨0, _⟩ => show win1_1.index t 0 * 5000 + 1 * r.val = t.val * 5000 + r.val; rw [e10]; omega
  | ⟨1, _⟩ => show win1_1.index t 1 * 64 + 1 * j.val = j.val; rw [e11]; omega

/-- The first layer's weights: the one block is the array. -/
theorem blk2_apply (c : Dev nD) (t : Fin cfg1.N) (j : Fin 64) (k : Fin 64) :
    (iblk1 V c 2 t : FVec Ideal S64x64 .f32) (ix2 j k) = (V c main_arg7 : S64x64.Idx → EReal) (ix2 j k) := by
  obtain ⟨-, -, -, -, e20, e21, -⟩ := idx_facts t
  unfold iblk1
  rw [View.read_apply]
  show V c main_arg7 _ = V c main_arg7 _
  congr 1
  funext a
  apply Fin.ext
  match a with
  | ⟨0, _⟩ => show win1_2.index t 0 * 64 + 1 * j.val = j.val; rw [e20]; omega
  | ⟨1, _⟩ => show win1_2.index t 1 * 64 + 1 * k.val = k.val; rw [e21]; omega

/-- The first layer's bias row. -/
theorem blk3_apply (c : Dev nD) (t : Fin cfg1.N) (k : Fin 64) :
    (iblk1 V c 3 t : FVec Ideal S1x64 .f32) (ix2 (0 : Fin 1) k) = (V c main_v27 : S1x64.Idx → EReal) (ix2 (0 : Fin 1) k) := by
  obtain ⟨-, -, -, -, -, -, e30, e31, -⟩ := idx_facts t
  unfold iblk1
  rw [View.read_apply]
  show V c main_v27 _ = V c main_v27 _
  congr 1
  funext a
  apply Fin.ext
  match a with
  | ⟨0, _⟩ => show win1_3.index t 0 * 1 + 1 * 0 = 0; rw [e30]
  | ⟨1, _⟩ => show win1_3.index t 1 * 64 + 1 * k.val = k.val; rw [e31]; omega

/-- The second layer's weights. -/
theorem blk4_apply (c : Dev nD) (t : Fin cfg1.N) (k : Fin 64) (q : Fin 64) :
    (iblk1 V c 4 t : FVec Ideal S64x64 .f32) (ix2 k q) = (V c main_arg9 : S64x64.Idx → EReal) (ix2 k q) := by
  obtain ⟨-, -, -, -, -, -, -, -, e40, e41, -⟩ := idx_facts t
  unfold iblk1
  rw [View.read_apply]
  show V c main_arg9 _ = V c main_arg9 _
  congr 1
  funext a
  apply Fin.ext
  match a with
  | ⟨0, _⟩ => show win1_4.index t 0 * 64 + 1 * k.val = k.val; rw [e40]; omega
  | ⟨1, _⟩ => show win1_4.index t 1 * 64 + 1 * q.val = q.val; rw [e41]; omega

/-- The second layer's bias row. -/
theorem blk5_apply (c : Dev nD) (t : Fin cfg1.N) (q : Fin 64) :
    (iblk1 V c 5 t : FVec Ideal S1x64 .f32) (ix2 (0 : Fin 1) q) = (V c main_v28 : S1x64.Idx → EReal) (ix2 (0 : Fin 1) q) := by
  obtain ⟨-, -, -, -, -, -, -, -, -, -, e50, e51, -⟩ := idx_facts t
  unfold iblk1
  rw [View.read_apply]
  show V c main_v28 _ = V c main_v28 _
  congr 1
  funext a
  apply Fin.ext
  match a with
  | ⟨0, _⟩ => show win1_5.index t 0 * 1 + 1 * 0 = 0; rw [e50]
  | ⟨1, _⟩ => show win1_5.index t 1 * 64 + 1 * q.val = q.val; rw [e51]; omega

/-- The result array of the region: the update of every node's row, from the arrays as the region finds them. -/
def result (c : Dev nD) : FVec Ideal S100000x64 .f32 :=
  mlp (addf (V c main_v16 : FVec Ideal S100000x64 .f32) (V c main_v26 : FVec Ideal S100000x64 .f32))
    (V c main_arg7 : FVec Ideal S64x64 .f32) (rowOf (V c main_v27 : FVec Ideal S1x64 .f32))
    (V c main_arg9 : FVec Ideal S64x64 .f32) (rowOf (V c main_v28 : FVec Ideal S1x64 .f32))

/-- Where the output's block at point `t` sits in the array. -/
theorem emb6 (t : Fin cfg1.N) (r : Fin 5000) (q : Fin 64) :
    (((cfg1.win 6).blk t).view.emb (ix2 r q) : S100000x64.Idx) = ix2 (row t r) q := by
  obtain ⟨-, -, -, -, -, -, -, -, -, -, -, -, e60, e61⟩ := idx_facts t
  funext a
  apply Fin.ext
  match a with
  | ⟨0, _⟩ => show win1_6.index t 0 * 5000 + 1 * r.val = t.val * 5000 + r.val; rw [e60]; omega
  | ⟨1, _⟩ => show win1_6.index t 1 * 64 + 1 * q.val = q.val; rw [e61]; omega

/-- What point `t` writes back is its block of `result`. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz,
    View.ld_unit_zero (S := S64x64) hz]
  refine funext fun (y : S5000x64.Idx) => ?_
  obtain ⟨r, q, rfl⟩ : ∃ (r : Fin 5000) (q : Fin 64), y = ix2 r q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 r q)
    = result V c (((cfg1.win 6).blk t).view.emb (ix2 r q))
  rw [emb6 t r q]
  refine (pay_apply (iblk1 V c 0 t) (iblk1 V c 1 t) (iblk1 V c 2 t) (iblk1 V c 3 t) (iblk1 V c 4 t) (iblk1 V c 5 t) r q).trans ?_
  unfold result
  rw [mlp_apply]
  refine mlpAt_congr _ _ _ _ _ _ _ _ _ _ _ _ _ ?_ ?_ ?_ ?_ ?_
  · intro j
    exact congrArg₂ (fun a b : EReal => a + b) (blk0_apply V c t r j) (blk1_apply V c t r j)
  · intro j k; exact blk2_apply V c t j k
  · intro k; exact blk3_apply V c t k
  · intro k q'; exact blk4_apply V c t k q'
  · intro q'; exact blk5_apply V c t q'

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every row of the result lies in the block of the point `row / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have ht : (i 0).val / 5000 < cfg1.N := by rw [hN]; omega
  refine ⟨⟨(i 0).val / 5000, ht⟩, flush1_6 _, ?_⟩
  rw [mem_blk]
  obtain ⟨-, -, -, -, -, -, -, -, -, -, -, -, e60, e61⟩ := idx_facts ⟨(i 0).val / 5000, ht⟩
  intro a
  match a with
  | ⟨0, _⟩ =>
    show win1_6.index ⟨(i 0).val / 5000, ht⟩ 0 * 5000 ≤ (i 0).val ∧ (i 0).val < win1_6.index ⟨(i 0).val / 5000, ht⟩ 0 * 5000 + 5000
    rw [e60]
    show (i 0).val / 5000 * 5000 ≤ (i 0).val ∧ (i 0).val < (i 0).val / 5000 * 5000 + 5000
    omega
  | ⟨1, _⟩ =>
    show win1_6.index ⟨(i 0).val / 5000, ht⟩ 1 * 64 ≤ (i 1).val ∧ (i 1).val < win1_6.index ⟨(i 0).val / 5000, ht⟩ 1 * 64 + 64
    rw [e61]
    omega

/-- The region's result array ends at the update of the arrays it found. -/
theorem final (c : Dev nD) : (dat1 V c).arrAt 6 cfg1.N = result V c :=
  (dat1 V c).arrAt_eq_of_cover 6 (result V c) (fun t _ => flushed_eq V c t) (cover)

end Cert.KernelIdeal.Region1

end
-- ==== Proof.GinHost.lean ====
/-
  The parts of the graph network that both programs leave to the host, each named once as a function of its operands
  and never opened: the sum of the in-neighbours' rows (`neighbourSum128`, `neighbourSum64`: a row gather by the edges'
  sources, negative indices wrapped, scatter-added by the edges' targets into zeros) and the read-out (`readout`: the
  per-graph mean of the node rows — the scatter-added rows over the node count clipped below at 1 — through the final
  linear layer). Then the whole network `network` over the update `Gin.mlp`, and the host's spelling of one layer
  (`hostLayer128`, `hostLayer64`) as that update.
-/
import proofs.«100790_j88072599372184_1_alg».proof.ReferenceIdeal
import proofs.«100790_j88072599372184_1_alg».proof.Proof.Gen.ReferenceIdeal
import proofs.«100790_j88072599372184_1_alg».proof.Proof.GinSpec

noncomputable section

namespace Cert.Gin

open Cert.ReferenceIdeal Cert.ReferenceIdeal.Gen Idealize.ShloMosaic Idealize.ShloMosaic.ValueIdx

/-- The rows of `x` at the edges' sources, added up at the edges' targets (128 features). -/
def neighbourSum128 (x : FVec Ideal S100000x128 .f32) (ei : IVec S2x1000000 32) : FVec Ideal S100000x128 .f32 :=
  Host.scatterAdd scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 (shapeCast _ (extractStridedSlice S1x1000000 ![1, 0] ei slices_S2x1000000_S1x1000000_1_0) shapeCasts_S1x1000000_S1000000)) (Host.gather gather_S100000x128_S1000000x1_S1000000x128_1_0_n_n_0_1_1128 x (broadcastInDim S1000000x1 ![0] bcast_S1000000_S1000000x1_0 (select (cmpi .slt (shapeCast _ (extractStridedSlice S1x1000000 ![0, 0] ei slices_S2x1000000_S1x1000000_0_0) shapeCasts_S1x1000000_S1000000) (broadcastInDim S1000000 ![] bcast_S_S1000000 (constantI S_ 32 0#32))) (addi (shapeCast _ (extractStridedSlice S1x1000000 ![0, 0] ei slices_S2x1000000_S1x1000000_0_0) shapeCasts_S1x1000000_S1000000) (broadcastInDim S1000000 ![] bcast_S_S1000000 (constantI S_ 32 100000#32))) (shapeCast _ (extractStridedSlice S1x1000000 ![0, 0] ei slices_S2x1000000_S1x1000000_0_0) shapeCasts_S1x1000000_S1000000))))

/-- The same over 64 features. -/
def neighbourSum64 (x : FVec Ideal S100000x64 .f32) (ei : IVec S2x1000000 32) : FVec Ideal S100000x64 .f32 :=
  Host.scatterAdd scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 (shapeCast _ (extractStridedSlice S1x1000000 ![1, 0] ei slices_S2x1000000_S1x1000000_1_0) shapeCasts_S1x1000000_S1000000)) (Host.gather gather_S100000x64_S1000000x1_S1000000x64_1_0_n_n_0_1_164 x (broadcastInDim S1000000x1 ![0] bcast_S1000000_S1000000x1_0 (select (cmpi .slt (shapeCast _ (extractStridedSlice S1x1000000 ![0, 0] ei slices_S2x1000000_S1x1000000_0_0) shapeCasts_S1x1000000_S1000000) (broadcastInDim S1000000 ![] bcast_S_S1000000 (constantI S_ 32 0#32))) (addi (shapeCast _ (extractStridedSlice S1x1000000 ![0, 0] ei slices_S2x1000000_S1x1000000_0_0) shapeCasts_S1x1000000_S1000000) (broadcastInDim S1000000 ![] bcast_S_S1000000 (constantI S_ 32 100000#32))) (shapeCast _ (extractStridedSlice S1x1000000 ![0, 0] ei slices_S2x1000000_S1x1000000_0_0) shapeCasts_S1x1000000_S1000000))))

/-- The per-graph mean of the node rows through the final linear layer. -/
def readout (hn : FVec Ideal S100000x64 .f32) (batch : IVec S100000 32) (Wf : FVec Ideal S64x2 .f32) (bf : FVec Ideal S2 .f32) :
    FVec Ideal S1000x2 .f32 :=
  addf (Host.dotGeneral dot_S1000x64_S64x2_S1000x2_1_0_0_1_n_n none (Host.divf (Host.scatterAdd scatter_S1000x64_S100000x1_S100000x64_1_0_0_1 (broadcastInDim S1000x64 ![] bcast_S_S1000x64 (constant (F := Ideal) S_ .f32 0x00000000#32)) (broadcastInDim S100000x1 ![0] bcast_S100000_S100000x1_0 batch) hn) (broadcastInDim S1000x64 ![0, 1] bcast_S1000x1_S1000x64_0_1 (broadcastInDim S1000x1 ![0] bcast_S1000_S1000x1_0 (maximumf (broadcastInDim S1000 ![] bcast_S_S1000 (id (constant (F := Ideal) S_ .f32 0x3F800000#32))) (Host.scatterAdd scatter_S1000_S100000x1_S100000_n_0_0_1 (broadcastInDim S1000 ![] bcast_S_S1000 (constant (F := Ideal) S_ .f32 0x00000000#32)) (broadcastInDim S100000x1 ![0] bcast_S100000_S100000x1_0 batch) (broadcastInDim S100000 ![] bcast_S_S100000 (constant (F := Ideal) S_ .f32 0x3F800000#32))))))) Wf) (broadcastInDim S1000x2 ![0, 1] bcast_S1x2_S1000x2_0_1 (broadcastInDim S1x2 ![1] bcast_S2_S1x2_1 bf))

/-- The first layer: 128 features in, 64 out. -/
def layer128 (x : FVec Ideal S100000x128 .f32) (ei : IVec S2x1000000 32) (Wa : FVec Ideal S128x64 .f32) (ba : FVec Ideal S64 .f32)
    (Wb : FVec Ideal S64x64 .f32) (bb : FVec Ideal S64 .f32) : FVec Ideal S100000x64 .f32 :=
  mlp (addf x (neighbourSum128 x ei)) Wa (fun k => ba (ix1 k)) Wb (fun q => bb (ix1 q))

/-- The second layer: 64 features in, 64 out. -/
def layer64 (x : FVec Ideal S100000x64 .f32) (ei : IVec S2x1000000 32) (Wa : FVec Ideal S64x64 .f32) (ba : FVec Ideal S64 .f32)
    (Wb : FVec Ideal S64x64 .f32) (bb : FVec Ideal S64 .f32) : FVec Ideal S100000x64 .f32 :=
  mlp (addf x (neighbourSum64 x ei)) Wa (fun k => ba (ix1 k)) Wb (fun q => bb (ix1 q))

/-- The whole network: two layers, then the read-out. -/
def network (x : FVec Ideal S100000x128 .f32) (ei : IVec S2x1000000 32) (batch : IVec S100000 32)
    (W1a : FVec Ideal S128x64 .f32) (b1a : FVec Ideal S64 .f32) (W1b : FVec Ideal S64x64 .f32) (b1b : FVec Ideal S64 .f32)
    (W2a : FVec Ideal S64x64 .f32) (b2a : FVec Ideal S64 .f32) (W2b : FVec Ideal S64x64 .f32) (b2b : FVec Ideal S64 .f32)
    (Wf : FVec Ideal S64x2 .f32) (bf : FVec Ideal S2 .f32) : FVec Ideal S1000x2 .f32 :=
  readout (layer64 (layer128 x ei W1a b1a W1b b1b) ei W2a b2a W2b b2b) batch Wf bf

/-- The host's spelling of the two dense layers over 128 input features … -/
def hostLayer128 (z : FVec Ideal S100000x128 .f32) (Wa : FVec Ideal S128x64 .f32) (ba : FVec Ideal S64 .f32)
    (Wb : FVec Ideal S64x64 .f32) (bb : FVec Ideal S64 .f32) : FVec Ideal S100000x64 .f32 :=
  maximumf (addf (Host.dotGeneral dot_S100000x64_S64x64_S100000x64_1_0_0_1_n_n none (maximumf (addf (Host.dotGeneral dot_S100000x128_S128x64_S100000x64_1_0_0_1_n_n none z Wa) (broadcastInDim S100000x64 ![0, 1] bcast_S1x64_S100000x64_0_1 (broadcastInDim S1x64 ![1] bcast_S64_S1x64_1 ba))) (broadcastInDim S100000x64 ![] bcast_S_S100000x64 (constant (F := Ideal) S_ .f32 0x00000000#32))) Wb) (broadcastInDim S100000x64 ![0, 1] bcast_S1x64_S100000x64_0_1 (broadcastInDim S1x64 ![1] bcast_S64_S1x64_1 bb))) (broadcastInDim S100000x64 ![] bcast_S_S100000x64 (constant (F := Ideal) S_ .f32 0x00000000#32))

/-- … and over 64. -/
def hostLayer64 (z : FVec Ideal S100000x64 .f32) (Wa : FVec Ideal S64x64 .f32) (ba : FVec Ideal S64 .f32)
    (Wb : FVec Ideal S64x64 .f32) (bb : FVec Ideal S64 .f32) : FVec Ideal S100000x64 .f32 :=
  maximumf (addf (Host.dotGeneral dot_S100000x64_S64x64_S100000x64_1_0_0_1_n_n none (maximumf (addf (Host.dotGeneral dot_S100000x64_S64x64_S100000x64_1_0_0_1_n_n none z Wa) (broadcastInDim S100000x64 ![0, 1] bcast_S1x64_S100000x64_0_1 (broadcastInDim S1x64 ![1] bcast_S64_S1x64_1 ba))) (broadcastInDim S100000x64 ![] bcast_S_S100000x64 (constant (F := Ideal) S_ .f32 0x00000000#32))) Wb) (broadcastInDim S100000x64 ![0, 1] bcast_S1x64_S100000x64_0_1 (broadcastInDim S1x64 ![1] bcast_S64_S1x64_1 bb))) (broadcastInDim S100000x64 ![] bcast_S_S100000x64 (constant (F := Ideal) S_ .f32 0x00000000#32))

/-- The host's two dense layers with rectifiers are the update `mlp`, entry by entry (128 input features). -/
theorem hostLayer128_eq (z : FVec Ideal S100000x128 .f32) (Wa : FVec Ideal S128x64 .f32) (ba : FVec Ideal S64 .f32)
    (Wb : FVec Ideal S64x64 .f32) (bb : FVec Ideal S64 .f32) :
    hostLayer128 z Wa ba Wb bb = mlp z Wa (fun k => ba (ix1 k)) Wb (fun q => bb (ix1 q)) :=
  hostMlp_eq dot_S100000x128_S128x64_S100000x64_1_0_0_1_n_n.wf dot_S100000x64_S64x64_S100000x64_1_0_0_1_n_n.wf none none
    z Wa ba Wb bb bcast_S64_S1x64_1 bcast_S1x64_S100000x64_0_1 bcast_S_S100000x64 bcast_S64_S1x64_1 bcast_S1x64_S100000x64_0_1
    bcast_S_S100000x64

/-- The same over 64 input features. -/
theorem hostLayer64_eq (z : FVec Ideal S100000x64 .f32) (Wa : FVec Ideal S64x64 .f32) (ba : FVec Ideal S64 .f32)
    (Wb : FVec Ideal S64x64 .f32) (bb : FVec Ideal S64 .f32) :
    hostLayer64 z Wa ba Wb bb = mlp z Wa (fun k => ba (ix1 k)) Wb (fun q => bb (ix1 q)) :=
  hostMlp_eq dot_S100000x64_S64x64_S100000x64_1_0_0_1_n_n.wf dot_S100000x64_S64x64_S100000x64_1_0_0_1_n_n.wf none none
    z Wa ba Wb bb bcast_S64_S1x64_1 bcast_S1x64_S100000x64_0_1 bcast_S_S100000x64 bcast_S64_S1x64_1 bcast_S1x64_S100000x64_0_1
    bcast_S_S100000x64

/-- The whole network as the host spells it: the layers' dense parts as `dot_general`s with broadcast biases. -/
def hostNetwork (x : FVec Ideal S100000x128 .f32) (ei : IVec S2x1000000 32) (batch : IVec S100000 32)
    (W1a : FVec Ideal S128x64 .f32) (b1a : FVec Ideal S64 .f32) (W1b : FVec Ideal S64x64 .f32) (b1b : FVec Ideal S64 .f32)
    (W2a : FVec Ideal S64x64 .f32) (b2a : FVec Ideal S64 .f32) (W2b : FVec Ideal S64x64 .f32) (b2b : FVec Ideal S64 .f32)
    (Wf : FVec Ideal S64x2 .f32) (bf : FVec Ideal S2 .f32) : FVec Ideal S1000x2 .f32 :=
  readout (hostLayer64 (addf (hostLayer128 (addf x (neighbourSum128 x ei)) W1a b1a W1b b1b)
      (neighbourSum64 (hostLayer128 (addf x (neighbourSum128 x ei)) W1a b1a W1b b1b) ei)) W2a b2a W2b b2b) batch Wf bf

/-- The host's spelling of the network is `network`. -/
theorem hostNetwork_eq (x : FVec Ideal S100000x128 .f32) (ei : IVec S2x1000000 32) (batch : IVec S100000 32)
    (W1a : FVec Ideal S128x64 .f32) (b1a : FVec Ideal S64 .f32) (W1b : FVec Ideal S64x64 .f32) (b1b : FVec Ideal S64 .f32)
    (W2a : FVec Ideal S64x64 .f32) (b2a : FVec Ideal S64 .f32) (W2b : FVec Ideal S64x64 .f32) (b2b : FVec Ideal S64 .f32)
    (Wf : FVec Ideal S64x2 .f32) (bf : FVec Ideal S2 .f32) :
    hostNetwork x ei batch W1a b1a W1b b1b W2a b2a W2b b2b Wf bf = network x ei batch W1a b1a W1b b1b W2a b2a W2b b2b Wf bf := by
  unfold hostNetwork network layer64 layer128
  rw [hostLayer128_eq, hostLayer64_eq]

end Cert.Gin

end
-- ==== Proof.KernelFold.lean ====
/-
  The idealized kernel program's result, read off the fold of its segments: what the last stretch of host operations
  leaves in the result buffer is the network `Gin.network` of the argument arrays. Each region's result array is the
  update `Gin.mlp` of the arrays the region finds (the two region modules); the stretches of host operations around
  the regions are read back one operation at a time — the neighbour sums and the read-out are the host's own
  operations, the same on both sides, and stay closed; a bias reaches a region as a one-row matrix with the vector's
  entries.
-/
import proofs.«100790_j88072599372184_1_alg».proof.Proof.Gen.KernelIdeal.Frame
import proofs.«100790_j88072599372184_1_alg».proof.Proof.Region0
import proofs.«100790_j88072599372184_1_alg».proof.Proof.Region1
import proofs.«100790_j88072599372184_1_alg».proof.Proof.GinHost
import Idealize.ShloMosaic.Lib.StableHlo.Run

set_option maxRecDepth 16384

noncomputable section

namespace Cert.KernelIdeal.Fold

open Cert.KernelIdeal Cert.KernelIdeal.Gen Cert.Gin
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## What region 0 finds: the first stretch of host operations read back -/

theorem V1_arg0 (c : Dev nD) : V1 m ρ c main_arg0 = (m ((c : Thread nD τ).loc main_arg0)) := by
  show StableHlo.after hostOps0 (W0 m ρ c) (Proc.devRef .tc main_arg0) = _
  after_results <;> rfl

theorem V1_arg3 (c : Dev nD) : V1 m ρ c main_arg3 = (m ((c : Thread nD τ).loc main_arg3)) := by
  show StableHlo.after hostOps0 (W0 m ρ c) (Proc.devRef .tc main_arg3) = _
  after_results <;> rfl

theorem V1_arg5 (c : Dev nD) : V1 m ρ c main_arg5 = (m ((c : Thread nD τ).loc main_arg5)) := by
  show StableHlo.after hostOps0 (W0 m ρ c) (Proc.devRef .tc main_arg5) = _
  after_results <;> rfl

theorem V1_v13 (c : Dev nD) : V1 m ρ c main_v13 = neighbourSum128 (m ((c : Thread nD τ).loc main_arg0)) (m ((c : Thread nD τ).loc main_arg1)) := by
  show StableHlo.after hostOps0 (W0 m ρ c) (Proc.devRef .tc main_v13) = _
  after_results <;> rfl

theorem V1_v14 (c : Dev nD) : V1 m ρ c main_v14 = shapeCast S1x64 (m ((c : Thread nD τ).loc main_arg4)) shapeCasts_S64_S1x64 := by
  show StableHlo.after hostOps0 (W0 m ρ c) (Proc.devRef .tc main_v14) = _
  after_results <;> rfl

theorem V1_v15 (c : Dev nD) : V1 m ρ c main_v15 = shapeCast S1x64 (m ((c : Thread nD τ).loc main_arg6)) shapeCasts_S64_S1x64 := by
  show StableHlo.after hostOps0 (W0 m ρ c) (Proc.devRef .tc main_v15) = _
  after_results <;> rfl

/-- After region 0 its result array holds the first layer of the network. -/
theorem layer1_eq (c : Dev nD) :
    W2 m ρ c (Proc.devRef .tc main_v16)
      = layer128 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ((Region0.final (V1 m ρ) c).trans ?_)
  unfold Region0.result layer128
  exact mlp_congr (congrArg₂ addf (V1_arg0 m ρ c) (V1_v13 m ρ c)) (V1_arg3 m ρ c)
    ((congrArg rowOf (V1_v14 m ρ c)).trans (rowOf_shapeCast _ _)) (V1_arg5 m ρ c)
    ((congrArg rowOf (V1_v15 m ρ c)).trans (rowOf_shapeCast _ _))

/-! ## What region 1 finds: region 0 leaves every buffer but its result array alone, then the second stretch -/

/-- The edges' sources, computed before region 0 and still there after it. -/
theorem W2_src (c : Dev nD) : W2 m ρ c (Proc.devRef .tc main_v1)
    = shapeCast S1000000 (extractStridedSlice S1x1000000 ![0, 0] (m ((c : Thread nD τ).loc main_arg1)) slices_S2x1000000_S1x1000000_0_0) shapeCasts_S1x1000000_S1000000 := by
  rw [W2_of_ne m ρ c main_v1 (by decide)]
  show StableHlo.after hostOps0 (W0 m ρ c) (Proc.devRef .tc main_v1) = _
  after_results <;> rfl

/-- The edges' targets. -/
theorem W2_dst (c : Dev nD) : W2 m ρ c (Proc.devRef .tc main_v3)
    = shapeCast S1000000 (extractStridedSlice S1x1000000 ![1, 0] (m ((c : Thread nD τ).loc main_arg1)) slices_S2x1000000_S1x1000000_1_0) shapeCasts_S1x1000000_S1000000 := by
  rw [W2_of_ne m ρ c main_v3 (by decide)]
  show StableHlo.after hostOps0 (W0 m ρ c) (Proc.devRef .tc main_v3) = _
  after_results <;> rfl

theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results <;> rfl

theorem W2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results <;> rfl

theorem W2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results <;> rfl

theorem W2_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results <;> rfl

theorem V3_v16 (c : Dev nD) : V3 m ρ c main_v16 = W2 m ρ c (Proc.devRef .tc main_v16) := by
  show StableHlo.after hostOps1 (W2 m ρ c) (Proc.devRef .tc main_v16) = _
  after_results <;> rfl

theorem V3_v26 (c : Dev nD) : V3 m ρ c main_v26 = neighbourSum64 (W2 m ρ c (Proc.devRef .tc main_v16)) (m ((c : Thread nD τ).loc main_arg1)) := by
  show StableHlo.after hostOps1 (W2 m ρ c) (Proc.devRef .tc main_v26) = _
  after_results
  rw [W2_src m ρ c, W2_dst m ρ c]
  rfl

theorem V3_arg7 (c : Dev nD) : V3 m ρ c main_arg7 = (m ((c : Thread nD τ).loc main_arg7)) := by
  show StableHlo.after hostOps1 (W2 m ρ c) (Proc.devRef .tc main_arg7) = _
  after_results
  exact W2_arg7 m ρ c

theorem V3_arg9 (c : Dev nD) : V3 m ρ c main_arg9 = (m ((c : Thread nD τ).loc main_arg9)) := by
  show StableHlo.after hostOps1 (W2 m ρ c) (Proc.devRef .tc main_arg9) = _
  after_results
  exact W2_arg9 m ρ c

theorem V3_v27 (c : Dev nD) : V3 m ρ c main_v27 = shapeCast S1x64 (m ((c : Thread nD τ).loc main_arg8)) shapeCasts_S64_S1x64 := by
  show StableHlo.after hostOps1 (W2 m ρ c) (Proc.devRef .tc main_v27) = _
  after_results
  rw [W2_arg8 m ρ c]
  rfl

theorem V3_v28 (c : Dev nD) : V3 m ρ c main_v28 = shapeCast S1x64 (m ((c : Thread nD τ).loc main_arg10)) shapeCasts_S64_S1x64 := by
  show StableHlo.after hostOps1 (W2 m ρ c) (Proc.devRef .tc main_v28) = _
  after_results
  rw [W2_arg10 m ρ c]
  rfl

/-- After region 1 its result array holds the second layer of the network. -/
theorem layer2_eq (c : Dev nD) :
    W4 m ρ c (Proc.devRef .tc main_v29)
      = layer64 (layer128 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
          (m ((c : Thread nD τ).loc main_arg1)) (m ((c : Thread nD τ).loc main_arg7)) (m ((c : Thread nD τ).loc main_arg8)) (m ((c : Thread nD τ).loc main_arg9)) (m ((c : Thread nD τ).loc main_arg10)) := by
  refine (W4_arr m ρ c 6).trans ((Region1.final (V3 m ρ) c).trans ?_)
  unfold Region1.result layer64
  refine mlp_congr ?_ (V3_arg7 m ρ c)
    ((congrArg rowOf (V3_v27 m ρ c)).trans (rowOf_shapeCast _ _)) (V3_arg9 m ρ c)
    ((congrArg rowOf (V3_v28 m ρ c)).trans (rowOf_shapeCast _ _))
  rw [V3_v16 m ρ c, V3_v26 m ρ c, layer1_eq m ρ c]

end Cert.KernelIdeal.Fold

end
-- ==== Proof.KernelTail.lean ====
/-
  The idealized kernel program's last stretch of host operations, read back: from region 1's result array and the
  arguments it reads (the graph of each node, the final layer's weights and bias — none of which any region or earlier
  host operation writes) the result buffer ends at the read-out `Gin.readout`, the host's own operations left closed.
-/
import proofs.«100790_j88072599372184_1_alg».proof.Proof.Gen.KernelIdeal.Frame
import proofs.«100790_j88072599372184_1_alg».proof.Proof.GinHost
import Idealize.ShloMosaic.Lib.StableHlo.Run

set_option maxRecDepth 16384

noncomputable section

namespace Cert.KernelIdeal.Tail

open Cert.KernelIdeal Cert.KernelIdeal.Gen Cert.Gin
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

theorem W2_arg2 (c : Dev nD) : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  after_results <;> rfl

theorem W2_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results <;> rfl

theorem W2_arg12 (c : Dev nD) : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results <;> rfl

theorem W4_arg2 (c : Dev nD) : W4 m ρ c (Proc.devRef .tc main_arg2) = (m ((c : Thread nD τ).loc main_arg2)) := by
  rw [W4_of_ne m ρ c main_arg2 (by decide)]
  show StableHlo.after hostOps1 (W2 m ρ c) (Proc.devRef .tc main_arg2) = _
  after_results
  exact W2_arg2 m ρ c

theorem W4_arg11 (c : Dev nD) : W4 m ρ c (Proc.devRef .tc main_arg11) = (m ((c : Thread nD τ).loc main_arg11)) := by
  rw [W4_of_ne m ρ c main_arg11 (by decide)]
  show StableHlo.after hostOps1 (W2 m ρ c) (Proc.devRef .tc main_arg11) = _
  after_results
  exact W2_arg11 m ρ c

theorem W4_arg12 (c : Dev nD) : W4 m ρ c (Proc.devRef .tc main_arg12) = (m ((c : Thread nD τ).loc main_arg12)) := by
  rw [W4_of_ne m ρ c main_arg12 (by decide)]
  show StableHlo.after hostOps1 (W2 m ρ c) (Proc.devRef .tc main_arg12) = _
  after_results
  exact W2_arg12 m ρ c

/-- The node counts per graph, clipped below at one: what the outlined clip leaves. -/
theorem W6_v37 (c : Dev nD) :
    W6 m ρ c (Proc.devRef .tc main_v37)
      = maximumf (broadcastInDim S1000 ![] bcast_S_S1000 (id (constant (F := Ideal) S_ .f32 0x3F800000#32)))
          (Host.scatterAdd scatter_S1000_S100000x1_S100000_n_0_0_1 (broadcastInDim S1000 ![] bcast_S_S1000 (constant (F := Ideal) S_ .f32 0x00000000#32))
            (broadcastInDim S100000x1 ![0] bcast_S100000_S100000x1_0 (m ((c : Thread nD τ).loc main_arg2)))
            (broadcastInDim S100000 ![] bcast_S_S100000 (constant (F := Ideal) S_ .f32 0x3F800000#32))) := by
  show StableHlo.after hostOps2_1 (StableHlo.after hostOps2 (W4 m ρ c)) (Proc.devRef .tc main_v37) = _
  after_results
  rw [W4_arg2 m ρ c]
  rfl

/-- The node rows added up per graph. -/
theorem W6_v32 (c : Dev nD) :
    W6 m ρ c (Proc.devRef .tc main_v32)
      = Host.scatterAdd scatter_S1000x64_S100000x1_S100000x64_1_0_0_1 (broadcastInDim S1000x64 ![] bcast_S_S1000x64 (constant (F := Ideal) S_ .f32 0x00000000#32))
          (broadcastInDim S100000x1 ![0] bcast_S100000_S100000x1_0 (m ((c : Thread nD τ).loc main_arg2))) (W4 m ρ c (Proc.devRef .tc main_v29)) := by
  show StableHlo.after hostOps2_1 (StableHlo.after hostOps2 (W4 m ρ c)) (Proc.devRef .tc main_v32) = _
  after_results
  rw [W4_arg2 m ρ c]

theorem W6_arg11 (c : Dev nD) : W6 m ρ c (Proc.devRef .tc main_arg11) = (m ((c : Thread nD τ).loc main_arg11)) := by
  show StableHlo.after hostOps2_1 (StableHlo.after hostOps2 (W4 m ρ c)) (Proc.devRef .tc main_arg11) = _
  after_results
  exact W4_arg11 m ρ c

theorem W6_arg12 (c : Dev nD) : W6 m ρ c (Proc.devRef .tc main_arg12) = (m ((c : Thread nD τ).loc main_arg12)) := by
  show StableHlo.after hostOps2_1 (StableHlo.after hostOps2 (W4 m ρ c)) (Proc.devRef .tc main_arg12) = _
  after_results
  exact W4_arg12 m ρ c

/-- The result buffer after the last host operation: the read-out of region 1's result array. -/
theorem tail_eq (c : Dev nD) :
    W7 m ρ c (Proc.devRef .tc main_v44)
      = readout (W4 m ρ c (Proc.devRef .tc main_v29)) (m ((c : Thread nD τ).loc main_arg2)) (m ((c : Thread nD τ).loc main_arg11)) (m ((c : Thread nD τ).loc main_arg12)) := by
  show StableHlo.after hostOps2_2 (W6 m ρ c) (Proc.devRef .tc main_v44) = _
  generalize hX : W6 m ρ c = X
  have e32 := W6_v32 m ρ c
  have e37 := W6_v37 m ρ c
  have e11 := W6_arg11 m ρ c
  have e12 := W6_arg12 m ρ c
  rw [hX] at e32 e37 e11 e12
  after_results
  rw [e32, e37, e11, e12]
  rfl

end Cert.KernelIdeal.Tail

end
-- ==== Proof.KernelValue.lean ====
/-
  The idealized kernel program's result is the network of its arguments: the read-out of the second layer of the first
  layer, each layer's result array read off its region.
-/
import proofs.«100790_j88072599372184_1_alg».proof.Proof.KernelFold
import proofs.«100790_j88072599372184_1_alg».proof.Proof.KernelTail

noncomputable section

namespace Cert.KernelIdeal.Fold

open Cert.KernelIdeal Cert.KernelIdeal.Gen Cert.Gin
open Idealize.ShloMosaic Idealize.ShloMosaic.TcCoe Idealize.SL.Sem

variable (m : (ℓ : Loc nD τ sig) → Buf (Elt Ideal) ℓ) (ρ : Dev nD → PrngReg)

/-- The program's result is the network of its arguments. -/
theorem result_eq (c : Dev nD) :
    W7 m ρ c (Proc.devRef .tc main_v44) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Tail.tail_eq m ρ c, layer2_eq m ρ c]
  rfl

end Cert.KernelIdeal.Fold

end
-- ==== Proof.RefTerm.lean ====
/-
  The reference program's result, read off its run: the composed term of its host operations is the network
  `Gin.network` of the argument arrays — the neighbour sums and the read-out are the host's own operations, named and
  left closed, and each layer's two `dot_general`s with broadcast biases and rectifiers are the update `Gin.mlp`.
-/
import proofs.«100790_j88072599372184_1_alg».proof.Proof.Gen.ReferenceIdeal.Run
import proofs.«100790_j88072599372184_1_alg».proof.Proof.GinHost

noncomputable section

namespace Cert.ReferenceIdeal.RefValue

open Cert.ReferenceIdeal Cert.ReferenceIdeal.Gen Cert.ReferenceIdeal.Value Cert.Gin
open Idealize.ShloMosaic Idealize.ShloMosaic.TcCoe Idealize.SL.Sem

set_option maxRecDepth 16384 in
/-- The run's result term is the host's spelling of the network, operation for operation. -/
theorem res_host (m : (ℓ : Loc nD τ sig) → Buf (Elt Ideal) ℓ) (c : Dev nD) :
    res_main_v60 (F := Ideal) m c
      = hostNetwork (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold res_main_v60 hostNetwork readout hostLayer64 hostLayer128 neighbourSum64 neighbourSum128
  rfl

/-- The reference's result is the network of its arguments. -/
theorem res_eq (m : (ℓ : Loc nD τ sig) → Buf (Elt Ideal) ℓ) (c : Dev nD) :
    res_main_v60 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) :=
  (res_host m c).trans (hostNetwork_eq _ _ _ _ _ _ _ _ _ _ _ _ _)

end Cert.ReferenceIdeal.RefValue

end
-- ==== Proof.lean ====
/-
  The claim: the tiled graph-network kernel and its plain reference compute the same function on the extended reals.

  Both programs run two layers of a graph isomorphism network over 100000 nodes and 1000000 edges and read the result
  out per graph. In each layer every node adds the sum of its in-neighbours' rows to its own (a row gather by the
  edges' sources scatter-added by their targets: the host's operations in BOTH programs, identical, and never opened
  here) and sends the sum through two dense layers with rectifiers,

      out (r, q) = max (∑ k, max (∑ j, z (r, j) * Wa (j, k) + ba k) 0 * Wb (k, q) + bb q) 0.

  The reference spells the dense layers as two `dot_general`s with broadcast biases over all 100000 rows at once. The
  kernel computes them in a region of 20 grid points, point `t` on rows `5000 t … 5000 t + 4999`, with the operands of
  each matrix product first rounded to a narrower format — which is the identity on extended reals — and the biases
  passed as one-row matrices. A row of the update depends on the same row of the input only, so each block the kernel
  writes back is the block of the whole-array update, and the 20 blocks cover the array. The read-out (a per-graph mean
  and a final linear layer) is again the same host operations on both sides. So both results are ONE term,
  `Gin.network` of the argument arrays; no law of the extended reals beyond the sums' own definitions is used and the
  finiteness precondition is never opened.

  The frames: the two kernel programs' are the generated ones; the reference's is its generated run with the result
  dropped. The idealization rewrote no operation, so `preserves` is `True`.
-/
import proofs.«100790_j88072599372184_1_alg».proof.Defs
import proofs.«100790_j88072599372184_1_alg».proof.Proof.Gen.Kernel
import proofs.«100790_j88072599372184_1_alg».proof.Proof.Gen.Kernel.Skeleton
import proofs.«100790_j88072599372184_1_alg».proof.Proof.Gen.Kernel.Launch
import proofs.«100790_j88072599372184_1_alg».proof.Proof.Gen.Kernel.Points
import proofs.«100790_j88072599372184_1_alg».proof.Proof.Gen.Kernel.Frame
import proofs.«100790_j88072599372184_1_alg».proof.Proof.Gen.KernelIdeal
import proofs.«100790_j88072599372184_1_alg».proof.Proof.Gen.KernelIdeal.Skeleton
import proofs.«100790_j88072599372184_1_alg».proof.Proof.Gen.KernelIdeal.Launch
import proofs.«100790_j88072599372184_1_alg».proof.Proof.Gen.KernelIdeal.Points
import proofs.«100790_j88072599372184_1_alg».proof.Proof.Gen.KernelIdeal.Frame
import proofs.«100790_j88072599372184_1_alg».proof.Proof.Gen.ReferenceIdeal
import proofs.«100790_j88072599372184_1_alg».proof.Proof.Gen.ReferenceIdeal.Run
import proofs.«100790_j88072599372184_1_alg».proof.Proof.Gen.Pre_finite_inputs
import proofs.«100790_j88072599372184_1_alg».proof.Proof.KernelRun
import proofs.«100790_j88072599372184_1_alg».proof.Proof.KernelFold
import proofs.«100790_j88072599372184_1_alg».proof.Proof.KernelTail
import proofs.«100790_j88072599372184_1_alg».proof.Proof.KernelValue
import proofs.«100790_j88072599372184_1_alg».proof.Proof.RefTerm
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) argument arrays in their result buffers. -/
theorem algebraic : Cert.algebraic_KernelIdeal_ReferenceIdeal := by
  intro m ρ m' ρ' _ hagree
  refine ⟨fun c => Cert.Gin.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.res_eq m' c).trans ?_
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
